-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S4096x64 : Shape := ⟨2, ![4096, 64]⟩
abbrev S4096 : Shape := ⟨1, ![4096]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x64 .f32) (main_arg1 : FVec F S4096x64 .f32) (main_arg2 : FVec F S4096 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x64 : Shape := ⟨2, ![16384, 64]⟩
abbrev S4096x64 : Shape := ⟨2, ![4096, 64]⟩
abbrev S4096 : Shape := ⟨1, ![4096]⟩
abbrev S_ : Shape := ⟨0, ![]⟩
abbrev S1x4096 : Shape := ⟨2, ![1, 4096]⟩
abbrev S16384x4096 : Shape := ⟨2, ![16384, 4096]⟩
abbrev S1024x64 : Shape := ⟨2, ![1024, 64]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 13
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S4096, .f32⟩
  | .hbm, ⟨3, _⟩ => ⟨S4096x64, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S1x4096, .f32⟩
  | .hbm, ⟨12, _⟩ => ⟨S16384x4096, .f32⟩
  | .local _ .vmem, ⟨0, _⟩ => ⟨S1024x64, .f32⟩
  | .local _ .vmem, ⟨1, _⟩ => ⟨S1024x64, .f32⟩
  | .local _ .vmem, ⟨2, _⟩ => ⟨S4096x64, .f32⟩
  | .local _ .vmem, ⟨3, _⟩ => ⟨S1x4096, .f32⟩
  | .local _ .vmem, ⟨4, _⟩ => ⟨S1x4096, .f32⟩
  | .local _ .vmem, ⟨5, _⟩ => ⟨S1024x1024, .f32⟩
  | .local _ .vmem, ⟨6, _⟩ => ⟨S1024x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_mult2 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v4 : Index := Scalar.indexCast v1
  let c0_1 : Index := 0#32
  ![v4.toNat, 0]
def k0_off2 (i : grid0.Coords) : Fin 2 → Nat :=
  let c0_2 : Index := 0#32
  let arg1 : BitVec 32 := BitVec.ofNat 32 (i 1).val
  let c1024_i32 : BitVec 32 := 1024#32
  let v0 : BitVec 32 := Scalar.muli arg1 c1024_i32
  let v2 : BitVec 32 := v0
  let v6 : Index := Scalar.indexCast v2
  ![0, v6.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x64_S4096_d1 : S4096x64.ReducesTo [1] S4096
  h_S_ : 0 < S_.numel
  shapeCasts_S4096_S1x4096 : S4096.ShapeCasts S1x4096
  bcast_S_S4096 : S_.BroadcastsInDim S4096 (![] : Fin 0 → Fin S4096.rank)
  inb_S1024x64_S1024x64_0_0 : ∀ a, (![0, 0] : Fin 2 → Nat) a + S1024x64.size a ≤ S1024x64.size a
  h_S1024x64 : 0 < S1024x64.numel
  h_S1x1024 : 0 < S1x1024.numel
  shapeCasts_S1x1024_S1x1024 : S1x1024.ShapeCasts S1x1024
  reduces_S1024x64_S1024 : S1024x64.Reduces [1] S1024
  shapeCasts_S1024_S1024x1 : S1024.ShapeCasts S1024x1
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  k0_mult1_dvd : ∀ i : grid0.Coords, 8 ∣ (k0_mult1 i).toNat
  k0_mult2_dvd : ∀ i : grid0.Coords, 128 ∣ (k0_mult2 i).toNat
  k0_off1_inb : ∀ i : grid0.Coords, ∀ a, (k0_off1 i) a + S1024x64.size a ≤ S4096x64.size a
  k0_off2_inb : ∀ i : grid0.Coords, ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x4096.size a
  hwx0_4 : ∀ i : grid0.Coords, EltTy.bits .f32 = 32 ∨ (Rect.block (s := S16384x4096) S1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S4096x64 : Shape := ⟨2, ![4096, 64]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x4096 : Shape := ⟨2, ![16384, 4096]⟩
abbrev S64x4096 : Shape := ⟨2, ![64, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S4096, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S64x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S4096x64_S4096_d1 : S4096x64.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x64 : S_.BroadcastsInDim S16384x64 (![] : Fin 0 → Fin S16384x64.rank)
  transposes_S4096x64_S64x4096_1_0 : S4096x64.Transposes [1, 0] S64x4096
  bcast_S_S16384x4096 : S_.BroadcastsInDim S16384x4096 (![] : Fin 0 → Fin S16384x4096.rank)
  bcast_S_S4096 : S_.BroadcastsInDim S4096 (![] : Fin 0 → Fin S4096.rank)
  dot_S16384x64_S64x4096_S16384x4096_1_0_0_1_n_n_wf : DotDims.WF S16384x64 S64x4096 S16384x4096 [1] [0] [0] [1] [] []

variable [Facts₀]

def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf

class Facts : Prop extends Facts₀ where

variable [Facts]
-- ==== Proof.RbfBody.lean ====
/-
  What one grid point leaves in the output's staging buffer.

  The body at grid point (i, j) loads the whole [1024, 64] block of points, rows 1024 j … 1024 j + 1023 of the
  resident [4096, 64] centres, and lanes 1024 j … 1024 j + 1023 of the two resident [1, 4096] rows (squared centre
  norms, inverse squared widths), and stores ONE [1024, 1024] tile over the whole output block. So the block it
  leaves is the store's value: the body's arithmetic applied to those four loaded pieces.
-/
import proofs.«176870_j49572512530486_2_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

theorem zero_offsets : (![0, 0] : Fin 2 → Nat) = fun _ => 0 := funext fun a => by fin_cases a <;> rfl

/-- The rows of the centres the body reads at grid point i. -/
abbrev centreRows (i : grid0.Coords) : Rect S4096x64 := Rect.unit (s := S4096x64) (k0_off1 i) S1024x64.size (k0_off1_inb i)
/-- The lanes of a [1, 4096] row the body reads at grid point i. -/
abbrev rowLanes (i : grid0.Coords) : Rect S1x4096 := Rect.unit (s := S1x4096) (k0_off2 i) S1x1024.size (k0_off2_inb i)

/-- The output block after the body: its arithmetic (the one store's value) of the point block, the centre rows and
    the lanes of the two rows that the point's offsets select. -/
theorem block_eq (c : Dev nD) (i : grid0.Coords) (arg2 : Memref sig .tc .vmem S1024x64 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1024x1024 .f32) (harg6 : arg6.IsWhole)
    (x0 : Vec F S1024x64 .f32) (x1 : Vec F S4096x64 .f32) (x2 : Vec F S1x4096 .f32) (x3 : Vec F S1x4096 .f32) :
    out0_A_4 c i arg2 harg2 arg3 harg3 arg4 harg4 arg5 harg5 arg6 harg6 x0 x1 x2 x3
      = k0_pay1 x0 (View.ld x1 (centreRows i)) (View.ld x2 (rowLanes i)) (View.ld x3 (rowLanes i)) := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero zero_offsets]
  simp only [View.readAt_eq_ld, harg2.read_unread, harg3.read_unread, harg4.read_unread, harg5.read_unread,
    View.ld_unit_zero (S := S1024x64) zero_offsets]

end Cert.KernelIdeal.Body

end
-- ==== Proof.RbfSpec.lean ====
/-
  The radial-basis activation as ONE function of the three argument arrays, index by index, on the extended reals.

  For points x (rows of a [B, n] array), centres c (rows of an [O, n] array) and log-widths ls (length O), entry
  (p, e) of the result is

      exp( -max( (|x_p|^2 + |c_e|^2) - 2 * <x_p, c_e>, 0 ) * exp(-2 * ls_e) )

  where |x_p|^2 is the sum over k of x(p,k)^2 and <x_p, c_e> the sum over k of x(p,k) * c(e,k): the squared distance
  by the norm identity, clamped at zero, scaled by the inverse squared width, through the Gaussian.

  One program doubles the inner product, the other doubles the point's coordinates before taking it. On the extended
  reals a product with a NONNEGATIVE FINITE constant distributes over any sum, whatever the summands are (the one
  dangerous case, +inf + -inf = -inf, is kept by a positive factor), so the two agree at every input: no finiteness
  of the entries is used anywhere.
-/
import Idealize.ShloMosaic.PureOps.Ideal
import Idealize.ShloMosaic.PureOps.Ideal.Laws
import Idealize.ShloMosaic.Lib.ValueIdx
import Mathlib.Data.EReal.Operations

noncomputable section

namespace Cert.Rbf

open Idealize.ShloMosaic Idealize.ShloMosaic.ValueIdx

/-! ## The literals -/

/-- The f32 word 0x40000000 is the real number 2. -/
theorem two_eq : Ideal.ofBits .f32 0x40000000#32 = ((2 : ℝ) : EReal) := by
  simp [Ideal.ofBits, Ideal.ieee, -EReal.coe_mul]; norm_num

theorem two_nonneg : (0 : EReal) ≤ Ideal.ofBits .f32 0x40000000#32 := by
  rw [two_eq]; exact_mod_cast (by norm_num : (0 : ℝ) ≤ 2)

theorem two_ne_top : Ideal.ofBits .f32 0x40000000#32 ≠ (⊤ : EReal) := by
  rw [two_eq]; exact EReal.coe_ne_top 2

/-! ## Scaling a sum by a nonnegative finite constant -/

/-- A nonnegative finite factor distributes over a finite sum of arbitrary extended reals. -/
theorem scale_sum {ι : Type} (s : Finset ι) (c : EReal) (h0 : 0 ≤ c) (ht : c ≠ ⊤) (f : ι → EReal) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top h0 ht, ih]

/-- Doubling an inner product is the inner product with the first vector doubled. -/
theorem scale_inner {n : ℕ} (c : EReal) (h0 : 0 ≤ c) (ht : c ≠ ⊤) (u w : Fin n → EReal) :
    c * ∑ k : Fin n, u k * w k = ∑ k : Fin n, (c * u k) * w k := by
  rw [scale_sum Finset.univ c h0 ht]
  exact Finset.sum_congr rfl fun k _ => (mul_assoc c (u k) (w k)).symm

/-! ## The function -/

variable {a b n : ℕ}

/-- The squared norm of row p: the sum of the squares of its entries. -/
def rowSq (x : (⟨2, ![a, n]⟩ : Shape).Idx → EReal) (p : Fin a) : EReal :=
  ∑ k : Fin n, x (ix2 p k) * x (ix2 p k)

/-- The inner product of row p of x with row e of w. -/
def rowDot (x : (⟨2, ![a, n]⟩ : Shape).Idx → EReal) (w : (⟨2, ![b, n]⟩ : Shape).Idx → EReal) (p : Fin a) (e : Fin b) : EReal :=
  ∑ k : Fin n, x (ix2 p k) * w (ix2 e k)

/-- The activation from the two squared norms xx and cc, the inner product xc and the inverse squared width s:
    exp(-max((xx + cc) - 2 xc, 0) * s). -/
def act (xx cc xc s : EReal) : EReal :=
  Ideal.exp (-(max ((xx + cc) - Ideal.ofBits .f32 0x40000000#32 * xc) 0) * s)

/-- The inverse squared width of centre e: exp(-2 * ls_e). -/
def invWidth (ls : (⟨1, ![b]⟩ : Shape).Idx → EReal) (e : Fin b) : EReal :=
  Ideal.exp (Ideal.ofBits .f32 0xC0000000#32 * ls (ix1 e))

/-- The whole result, at (p, e). -/
def rbf (x : (⟨2, ![a, n]⟩ : Shape).Idx → EReal) (ce : (⟨2, ![b, n]⟩ : Shape).Idx → EReal)
    (ls : (⟨1, ![b]⟩ : Shape).Idx → EReal) (j : (⟨2, ![a, b]⟩ : Shape).Idx) : EReal :=
  act (rowSq x (j 0)) (rowSq ce (j 1)) (rowDot x ce (j 0) (j 1)) (invWidth ls (j 1))

/-- The same activation with the doubling moved inside the inner product: what a program computes that doubles the
    point's coordinates first. -/
theorem act_scaled (x : (⟨2, ![a, n]⟩ : Shape).Idx → EReal) (w : (⟨2, ![b, n]⟩ : Shape).Idx → EReal) (p : Fin a) (e : Fin b)
    (xx cc s : EReal) :
    Ideal.exp (-(max ((xx + cc) - ∑ k : Fin n, (Ideal.ofBits .f32 0x40000000#32 * x (ix2 p k)) * w (ix2 e k)) 0) * s)
      = act xx cc (rowDot x w p e) s := by
  unfold act rowDot
  rw [scale_inner _ two_nonneg two_ne_top (fun k => x (ix2 p k)) (fun k => w (ix2 e k))]

end Cert.Rbf

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.RbfPayload.lean ====
/-
  The body's arithmetic at an entry (p, q) of its [1024, 1024] tile, on the extended reals.

  From a [1024, 64] block of points xs, a [1024, 64] block of centres cs and two [1, 1024] rows c2 and iw, the body
  computes exp((0 - max((|xs_p|^2 + c2_q) - 2 <xs_p, cs_q>, 0)) * iw_q): the lane sum of squares kept as a column and
  spread along the rows, the two rows spread down the columns, and the matrix-unit product of the two blocks
  contracting their last axes (the narrowing of its operands to bf16 changes nothing on exact values).
-/
import proofs.«176870_j49572512530486_2_alg».proof.Proof.Gen.KernelIdeal.Skeleton
import proofs.«176870_j49572512530486_2_alg».proof.Proof.RbfSpec
import proofs.«176870_j49572512530486_2_alg».proof.Proof.LibRowOps
import proofs.«176870_j49572512530486_2_alg».proof.Proof.LibRowReduce
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx Cert.Rbf

/-- The squared norms of the block's rows, kept as a column and spread along the rows: |xs_p|^2 at (p, q). -/
theorem normColumn_apply (xs : Vec Ideal S1024x64 .f32) (p q : Fin 1024) :
    broadcastTo S1024x1024 (shapeCast S1024x1 (multiReduction (F := Ideal) .add [1] S1024 (mulf xs xs) 0x00000000#32
        reduces_S1024x64_S1024 (.inl rfl) rfl) shapeCasts_S1024_S1024x1) broadcasts_S1024x1_S1024x1024 (ix2 p q)
      = rowSq xs p :=
  (RowReduce.column_broadcast_apply _ shapeCasts_S1024_S1024x1 broadcasts_S1024x1_S1024x1024 p q).trans
    (Cert.RowOps.laneSum_apply (mulf xs xs) reduces_S1024x64_S1024 (.inl rfl) rfl p)

/-- A [1, 1024] row spread down the columns reads its lane q at (p, q). -/
theorem rowSpread_apply (r : Vec Ideal S1x1024 .f32) (p q : Fin 1024) :
    broadcastTo S1024x1024 (shapeCast S1x1024 r shapeCasts_S1x1024_S1x1024) broadcasts_S1x1024_S1024x1024 (ix2 p q)
      = r (ix2 (0 : Fin 1) q) :=
  (broadcastTo_1b_ab_apply _ broadcasts_S1x1024_S1024x1024 p q).trans
    (congrFun (shapeCast_self r shapeCasts_S1x1024_S1x1024) _)

/-- The matrix-unit product of the two blocks, contracting the last axis of both, into the zero accumulator:
    the inner product of row p of xs with row q of cs. -/
theorem product_apply (xs cs : Vec Ideal S1024x64 .f32) (p q : Fin 1024) :
    matmul (F := Ideal) dot_S1024x64_S1024x64_S1024x1024_1_1_0_0_n_n none (truncf .bf16 xs bitsLt_bf16_f32)
        (truncf .bf16 cs bitsLt_bf16_f32) (constant S1024x1024 .f32 0x00000000#32) (ix2 p q)
      = rowDot xs cs p q :=
  (Ideal.matmul_constant_zero_apply dot_S1024x64_S1024x64_S1024x1024_1_1_0_0_n_n none
      (truncf .bf16 xs bitsLt_bf16_f32) (truncf .bf16 cs bitsLt_bf16_f32) (ix2 p q)).trans
    (Cert.RowOps.contraction_rows dot_S1024x64_S1024x64_S1024x1024_1_1_0_0_n_n_wf xs cs p q)

/-- The body's value at (p, q). -/
theorem pay_apply (xs cs : Vec Ideal S1024x64 .f32) (c2 iw : Vec Ideal S1x1024 .f32) (p q : Fin 1024) :
    k0_pay1 (F := Ideal) xs cs c2 iw (ix2 p q)
      = act (rowSq xs p) (c2 (ix2 (0 : Fin 1) q)) (rowDot xs cs p q) (iw (ix2 (0 : Fin 1) q)) := by
  unfold k0_pay1 act
  show Ideal.exp ((Ideal.ofBits .f32 0x00000000#32 - max ((_ + _) - Ideal.ofBits .f32 0x40000000#32 * _) (Ideal.ofBits .f32 0x00000000#32)) * _) = _
  rw [normColumn_apply xs p q, rowSpread_apply c2 p q, rowSpread_apply iw p q, product_apply xs cs p q,
    Ideal.ofBits_zero_f32, zero_sub]

end Cert.KernelIdeal.Payload

end
-- ==== Proof.RbfTile.lean ====
/-
  One output tile is a tile of the whole function.

  Tile (bi, bj) of the [16384, 4096] result covers rows 1024 bi + p and columns 1024 bj + q. If the point block is rows
  1024 bi … of the points, the centre block rows 1024 bj … of the centres, and the two row pieces lanes 1024 bj … of
  the norm row and the width row — whose lanes are |c_e|^2 and exp(-2 ls_e) — then the body's value at (p, q) is the
  radial-basis function at (1024 bi + p, 1024 bj + q).
-/
import proofs.«176870_j49572512530486_2_alg».proof.Proof.RbfPayload

noncomputable section

namespace Cert.KernelIdeal.Tile

open Cert.KernelIdeal Cert.KernelIdeal.Gen Idealize.ShloMosaic Idealize.ShloMosaic.ValueIdx Cert.Rbf

theorem tile_entry (X : S16384x64.Idx → EReal) (C : S4096x64.Idx → EReal) (L : S4096.Idx → EReal)
    (N W : S1x4096.Idx → EReal)
    (hN : ∀ e : Fin 4096, N (ix2 (0 : Fin 1) e) = rowSq C e) (hW : ∀ e : Fin 4096, W (ix2 (0 : Fin 1) e) = invWidth L e)
    (xs cs : Vec Ideal S1024x64 .f32) (c2 iw : Vec Ideal S1x1024 .f32) (bi bj : ℕ)
    (hxs : ∀ (p : Fin 1024) (k : Fin 64) (P : Fin 16384), P.val = bi * 1024 + p.val → xs (ix2 p k) = X (ix2 P k))
    (hcs : ∀ (q : Fin 1024) (k : Fin 64) (E : Fin 4096), E.val = bj * 1024 + q.val → cs (ix2 q k) = C (ix2 E k))
    (hc2 : ∀ (q : Fin 1024) (E : Fin 4096), E.val = bj * 1024 + q.val → c2 (ix2 (0 : Fin 1) q) = N (ix2 (0 : Fin 1) E))
    (hiw : ∀ (q : Fin 1024) (E : Fin 4096), E.val = bj * 1024 + q.val → iw (ix2 (0 : Fin 1) q) = W (ix2 (0 : Fin 1) E))
    (j : S1024x1024.Idx) (J : S16384x4096.Idx)
    (h0 : (J 0).val = bi * 1024 + (j 0).val) (h1 : (J 1).val = bj * 1024 + (j 1).val) :
    k0_pay1 (F := Ideal) xs cs c2 iw j = rbf X C L J := by
  obtain ⟨p, q, rfl⟩ : ∃ (p q : Fin 1024), j = ix2 p q := ⟨j 0, j 1, eq_ix2 j⟩
  rw [Payload.pay_apply xs cs c2 iw p q]
  unfold rbf
  have e1 : rowSq xs p = rowSq X (J 0) := Finset.sum_congr rfl fun k _ => by rw [hxs p k (J 0) h0]
  have e2 : c2 (ix2 (0 : Fin 1) q) = rowSq C (J 1) := (hc2 q (J 1) h1).trans (hN (J 1))
  have e3 : rowDot xs cs p q = rowDot X C (J 0) (J 1) :=
    Finset.sum_congr rfl fun k _ => by rw [hxs p k (J 0) h0, hcs q k (J 1) h1]
  have e4 : iw (ix2 (0 : Fin 1) q) = invWidth L (J 1) := (hiw q (J 1) h1).trans (hW (J 1))
  rw [e1, e2, e3, e4]

end Cert.KernelIdeal.Tile

end
-- ==== Proof.RbfRows.lean ====
/-
  The two rows the host prepares before the launch, as the region finds them, at a lane.

  The squared centre norms: the row sums of centres * centres from the initial value 0, viewed as one row [1, 4096];
  lane e is |c_e|^2. The inverse squared widths: exp(-2 * ls), viewed as one row; lane e is exp(-2 * ls_e).
-/
import proofs.«176870_j49572512530486_2_alg».proof.Proof.Gen.KernelIdeal.Frame
import proofs.«176870_j49572512530486_2_alg».proof.Proof.RbfSpec
import proofs.«176870_j49572512530486_2_alg».proof.Proof.LibRowOps
import Idealize.ShloMosaic.Lib.StableHlo.Run
import Idealize.ShloMosaic.Lib.Pipeline.Value
import Idealize.ShloMosaic.Lib.ValueLayout

set_option maxRecDepth 16384

noncomputable section

namespace Cert.KernelIdeal.Rows

open Cert.KernelIdeal Cert.KernelIdeal.Gen Idealize.ShloMosaic Idealize.ShloMosaic.TcCoe Idealize.ShloMosaic.Tactic
open Idealize.SL.Sem Idealize.ShloMosaic.StableHlo Idealize.ShloMosaic.ValueIdx Cert.Rbf

variable (m : (ℓ : Loc nD τ sig) → Buf (Elt Ideal) ℓ)

/-- The norm row is the host's row sums of the squared centres, cast to one row. -/
theorem normRow_eq (c : Dev nD) :
    (V m c main_v2 : S1x4096.Idx → EReal)
      = shapeCast S1x4096 (Host.reduceAdd (F := Ideal) (mulf (m ((c : Thread nD τ).loc main_arg1)) (m ((c : Thread nD τ).loc main_arg1)))
          (constant S_ .f32 0x00000000#32) reducesTo_S4096x64_S4096_d1 h_S_) shapeCasts_S4096_S1x4096 := by
  dsimp only [Gen.V, Gen.hostOps0]
  after_results
  rfl

/-- The width row is exp(-2 * ls), cast to one row. -/
theorem widthRow_eq (c : Dev nD) :
    (V m c main_v6 : S1x4096.Idx → EReal)
      = shapeCast S1x4096 (Host.exp (F := Ideal) (mulf (broadcastInDim S4096 ![] bcast_S_S4096 (constant (F := Ideal) S_ .f32 0xC0000000#32))
          (m ((c : Thread nD τ).loc main_arg2)))) shapeCasts_S4096_S1x4096 := by
  dsimp only [Gen.V, Gen.hostOps0]
  after_results
  rfl

/-- Lane e of the norm row: the squared norm of centre e. -/
theorem normRow_apply (c : Dev nD) (e : Fin 4096) :
    (V m c main_v2 : S1x4096.Idx → EReal) (ix2 (0 : Fin 1) e) = rowSq (m ((c : Thread nD τ).loc main_arg1)) e := by
  rw [normRow_eq]
  refine (shapeCast_a_1a_apply _ shapeCasts_S4096_S1x4096 0 e).trans ?_
  simp only [Host.reduceAdd, Ideal.hostReduceAdd_def]
  refine (Cert.RowOps.hostRowSum_apply _ reducesTo_S4096x64_S4096_d1 (by decide) _ e).trans ?_
  show Ideal.ofBits .f32 0x00000000#32 + _ = _
  rw [Ideal.ofBits_zero_f32, zero_add]
  rfl

/-- Lane e of the width row: exp(-2 * ls_e). -/
theorem widthRow_apply (c : Dev nD) (e : Fin 4096) :
    (V m c main_v6 : S1x4096.Idx → EReal) (ix2 (0 : Fin 1) e) = invWidth (m ((c : Thread nD τ).loc main_arg2)) e := by
  rw [widthRow_eq]
  refine (shapeCast_a_1a_apply _ shapeCasts_S4096_S1x4096 0 e).trans ?_
  show Ideal.exp (broadcastInDim S4096 ![] bcast_S_S4096 (constant (F := Ideal) S_ .f32 0xC0000000#32) (ix1 e) * _) = _
  rw [broadcastInDim_apply ![] bcast_S_S4096 _ (ix1 e) ix0 (fun a => a.elim0)]
  rfl

end Cert.KernelIdeal.Rows

end
-- ==== Proof.RbfBlocks.lean ====
/-
  From tiles to the whole array.

  Grid point t = (i, j) of the 16 x 4 grid writes back tile (i, j) of the [16384, 4096] result: rows 1024 i …, columns
  1024 j …. Its point block is rows 1024 i … of the points; the centres and the two host rows are resident whole, and
  the body itself selects rows / lanes 1024 j … of them. So what the point writes back is that tile of the
  radial-basis function of the argument arrays, the 64 tiles cover the array, and the array after the run is the
  function.
-/
import proofs.«176870_j49572512530486_2_alg».proof.Proof.Gen.KernelIdeal.Value
import proofs.«176870_j49572512530486_2_alg».proof.Proof.RbfBody
import proofs.«176870_j49572512530486_2_alg».proof.Proof.RbfTile
import proofs.«176870_j49572512530486_2_alg».proof.Proof.RbfRows

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Rbf
open Idealize.ShloMosaic.Pipeline (Dat)

variable (m : (ℓ : Loc nD τ sig) → Buf (Elt Ideal) ℓ) (ρ : Dev nD → PrngReg)

/-- The result array as a function of the three argument arrays on core c. -/
abbrev result (c : Dev nD) : S16384x4096.Idx → EReal :=
  rbf (m ((c : Thread nD τ).loc main_arg0)) (m ((c : Thread nD τ).loc main_arg1)) (m ((c : Thread nD τ).loc main_arg2))

/-- The printed index maps over the 64 grid points: the point block moves with the output's row-tile index, the
    resident operands stay at block 0, the body's offsets follow the output's column-tile index, and the tile indices
    stay in range. -/
theorem idx_facts : ∀ t : Fin cfg0.N,
      win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ (grid0.coords t (1 : Fin 2)).val = win0_4.index t (1 : Fin 2)
    ∧ win0_4.index t (0 : Fin 2) ≤ 15 ∧ win0_4.index t (1 : Fin 2) ≤ 3 :=
  (by decide +kernel : ∀ t : Fin grid0.N, _)

/-- Every tile is some grid point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-- What grid point t writes back is its tile of the result. -/
theorem flushed_eq (c : Dev nD) (t : Fin cfg0.N) :
    (dats m 0 c).flushed 4 t = ((cfg0.win 4).blk t).view.read (Elt Ideal) (result m c) := by
  rw [Value.flushed4_A, Body.block_eq]
  obtain ⟨e00, e01, e10, e11, e20, e21, e30, e31, eg, b0, b1⟩ := idx_facts t
  have o10 : k0_off1 (grid0.coords t) (0 : Fin 2) = 1024 * (grid0.coords t (1 : Fin 2)).val := congrFun (k0_off1_eq (grid0.coords t)) 0
  have o11 : k0_off1 (grid0.coords t) (1 : Fin 2) = 0 := congrFun (k0_off1_eq (grid0.coords t)) 1
  have o20 : k0_off2 (grid0.coords t) (0 : Fin 2) = 0 := congrFun (k0_off2_eq (grid0.coords t)) 0
  have o21 : k0_off2 (grid0.coords t) (1 : Fin 2) = 1024 * (grid0.coords t (1 : Fin 2)).val := congrFun (k0_off2_eq (grid0.coords t)) 1
  funext j
  refine Tile.tile_entry (m ((c : Thread nD τ).loc main_arg0)) (m ((c : Thread nD τ).loc main_arg1)) (m ((c : Thread nD τ).loc main_arg2))
    (V m c main_v2) (V m c main_v6) (Rows.normRow_apply m c) (Rows.widthRow_apply m c)
    (iblk m c 0 t) (View.ld (iblk m c 1 t) (Body.centreRows (grid0.coords t)))
    (View.ld (iblk m c 2 t) (Body.rowLanes (grid0.coords t))) (View.ld (iblk m c 3 t) (Body.rowLanes (grid0.coords t)))
    (win0_4.index t (0 : Fin 2)) (win0_4.index t (1 : Fin 2)) ?_ ?_ ?_ ?_ j (((cfg0.win 4).blk t).view.emb j) ?_ ?_
  · intro p k P hP
    show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 1024 + 1 * p.val = P.val; omega
    | ⟨1, _⟩ => show win0_0.index t (1 : Fin 2) * 64 + 1 * k.val = k.val; omega
  · intro q k E hE
    show V m c main_arg1 (((cfg0.win 1).blk t).view.emb ((Body.centreRows (grid0.coords t)).idx (ix2 q k))) = _
    rw [V_main_arg1]
    refine congrArg (m ((c : Thread nD τ).loc main_arg1)) (funext fun a => Fin.ext ?_)
    match a with
    | ⟨0, _⟩ => show win0_1.index t (0 : Fin 2) * 4096 + 1 * (k0_off1 (grid0.coords t) (0 : Fin 2) + 1 * q.val) = E.val; omega
    | ⟨1, _⟩ => show win0_1.index t (1 : Fin 2) * 64 + 1 * (k0_off1 (grid0.coords t) (1 : Fin 2) + 1 * k.val) = k.val; omega
  · intro q E hE
    show V m c main_v2 (((cfg0.win 2).blk t).view.emb ((Body.rowLanes (grid0.coords t)).idx (ix2 (0 : Fin 1) q))) = _
    refine congrArg (V m c main_v2) (funext fun a => Fin.ext ?_)
    match a with
    | ⟨0, _⟩ => show win0_2.index t (0 : Fin 2) * 1 + 1 * (k0_off2 (grid0.coords t) (0 : Fin 2) + 1 * 0) = 0; omega
    | ⟨1, _⟩ => show win0_2.index t (1 : Fin 2) * 4096 + 1 * (k0_off2 (grid0.coords t) (1 : Fin 2) + 1 * q.val) = E.val; omega
  · intro q E hE
    show V m c main_v6 (((cfg0.win 3).blk t).view.emb ((Body.rowLanes (grid0.coords t)).idx (ix2 (0 : Fin 1) q))) = _
    refine congrArg (V m c main_v6) (funext fun a => Fin.ext ?_)
    match a with
    | ⟨0, _⟩ => show win0_3.index t (0 : Fin 2) * 1 + 1 * (k0_off2 (grid0.coords t) (0 : Fin 2) + 1 * 0) = 0; omega
    | ⟨1, _⟩ => show win0_3.index t (1 : Fin 2) * 4096 + 1 * (k0_off2 (grid0.coords t) (1 : Fin 2) + 1 * q.val) = E.val; omega
  · show win0_4.index t (0 : Fin 2) * 1024 + 1 * (j 0).val = win0_4.index t (0 : Fin 2) * 1024 + (j 0).val; omega
  · show win0_4.index t (1 : Fin 2) * 1024 + 1 * (j 1).val = win0_4.index t (1 : Fin 2) * 1024 + (j 1).val; omega

/-- An index of the array is in point t's tile iff each coordinate is in the tile's range on its axis. -/
theorem mem_blk (t : Fin cfg0.N) (i : S16384x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7).slice (win0_4.rect t)).set ↔ _
  rw [View.set_slice_whole, Rect.mem_set_unit]
  exact Iff.rfl

/-- The tiles cover the array: entry (r, s) lies in tile (r / 1024, s / 1024). -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after the run is the radial-basis function of the argument arrays. -/
theorem final (c : Dev nD) : (dats m 0 c).arrAt 4 cfg0.N = result m c :=
  (dats m 0 c).arrAt_eq_of_cover 4 (result m c) (fun t _ => flushed_eq m c t) cover

/-- The kernel's run: the result array at the function of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RbfReference.lean ====
/-
  The reference's result is the radial-basis function of its arguments.

  Read one operation at a time at entry (p, e): the two squared norms are host row sums from the initial value 0,
  spread as a column and as a row; the cross term is the general dot product of 2 * x with the transposed centres,
  i.e. the sum over k of (2 * x(p,k)) * c(e,k); then subtract, clamp at zero, negate, scale by exp(-2 * ls_e), and
  exponentiate. Doubling inside the inner product is doubling the inner product.
-/
import proofs.«176870_j49572512530486_2_alg».proof.Proof.Gen.ReferenceIdeal.Read
import proofs.«176870_j49572512530486_2_alg».proof.Proof.RbfSpec

noncomputable section

namespace Cert.ReferenceIdeal.RefValue

open Cert.ReferenceIdeal Cert.ReferenceIdeal.Gen Cert.ReferenceIdeal.Read Idealize.ShloMosaic Idealize.ShloMosaic.ValueIdx Cert.Rbf

theorem result_eq (x : S16384x64.Idx → EReal) (ce : S4096x64.Idx → EReal) (ls : S4096.Idx → EReal) :
    val_main_v23 (F := Ideal) x ce ls = rbf x ce ls := by
  funext j
  obtain ⟨p, e, rfl⟩ : ∃ (p : Fin 16384) (e : Fin 4096), j = ix2 p e := ⟨j 0, j 1, eq_ix2 j⟩
  -- where each stage reads its operand
  have hx : ∀ k : Fin 64, idx_main_v1 (idx_main_v2 (idx_main_v6 (ix2 p e))) k = ix2 p k := fun k =>
    funext fun a => Fin.ext (by match a with | ⟨0, _⟩ => rfl | ⟨1, _⟩ => rfl)
  have hc : ∀ k : Fin 64, idx_main_v4 (idx_main_v5 (idx_main_v7 (ix2 p e))) k = ix2 e k := fun k =>
    funext fun a => Fin.ext (by match a with | ⟨0, _⟩ => rfl | ⟨1, _⟩ => rfl)
  have hl : ∀ k : Fin 64, lidx_main_v12 (ix2 p e) k = ix2 p k := fun k =>
    funext fun a => Fin.ext (by match a with | ⟨0, _⟩ => rfl | ⟨1, _⟩ => rfl)
  have hr : ∀ k : Fin 64, idx_main_v11 (ridx_main_v12 (ix2 p e) k) = ix2 e k := fun k =>
    funext fun a => Fin.ext (by match a with | ⟨0, _⟩ => rfl | ⟨1, _⟩ => rfl)
  have hw : idx_main_v19 (idx_main_v21 (ix2 p e)) = ix1 e :=
    funext fun a => Fin.ext (by match a with | ⟨0, _⟩ => rfl)
  rw [val_main_v23_apply, val_main_v22_apply, val_main_v20_apply, val_main_v15_apply, val_main_v13_apply,
    val_main_v8_apply, val_main_v6_apply, val_main_v2_apply, val_main_v1_apply, val_main_v7_apply, val_main_v5_apply,
    val_main_v4_apply, val_main_v12_apply, val_main_v14_apply, val_main_cst_2_apply, val_main_v21_apply,
    val_main_v19_apply, val_main_v18_apply, val_main_v17_apply, val_main_v16_apply, val_main_cst_3_apply,
    val_main_cst_apply, val_main_cst_0_apply]
  simp only [val_main_v0_apply, val_main_v3_apply, val_main_v10_apply, val_main_v9_apply, val_main_cst_1_apply,
    val_main_v11_apply, hx, hc, hl, hr, hw, Ideal.mulf_def, Ideal.addf_def, Ideal.subf_def, Ideal.maximumf_def,
    Ideal.hostNegf_def, Ideal.negf_def, Ideal.hostUnary_exp_def, Ideal.ofBits_def, Ideal.ofBits_zero_f32, zero_add]
  exact act_scaled x ce p e (rowSq x p) (rowSq ce e) (invWidth ls e)

end Cert.ReferenceIdeal.RefValue

end
-- ==== Proof.lean ====
/- The proof of `Cert.Claim`: a radial-basis layer, exp(-max(|x_p - c_e|^2, 0) * exp(-2 ls_e)) with the squared distance
   by the norm identity |x_p|^2 + |c_e|^2 - 2 <x_p, c_e>, computed tile by tile on a 16 x 4 grid, equals its whole-array
   reference on the extended reals.

   The kernel keeps the centres, their squared norms and the inverse squared widths resident, and at grid point (i, j)
   forms tile (i, j) from rows 1024 i … of the points and rows / lanes 1024 j … of the resident operands (Proof/RbfBody,
   RbfPayload, RbfRows); each tile is that tile of one whole-array function (Proof/RbfTile), and the 64 tiles cover
   the array (Proof/RbfBlocks). The reference is the same function read operation by operation (Proof/RbfReference).
   The one algebraic difference: the kernel doubles the inner product, the reference doubles the point's coordinates
   first; a nonnegative finite factor distributes over any sum of extended reals (Proof/RbfSpec), so the two agree at
   every input and the finiteness precondition is never opened.

   The three frames are the generated frame runs (the reference's is its generated run with the result dropped); the
   idealization rewrote no operation, so `preserves` is trivial. -/
import proofs.«176870_j49572512530486_2_alg».proof.Defs
import proofs.«176870_j49572512530486_2_alg».proof.Proof.Gen.Kernel
import proofs.«176870_j49572512530486_2_alg».proof.Proof.Gen.Kernel.Skeleton
import proofs.«176870_j49572512530486_2_alg».proof.Proof.Gen.Kernel.Launch
import proofs.«176870_j49572512530486_2_alg».proof.Proof.Gen.Kernel.Points
import proofs.«176870_j49572512530486_2_alg».proof.Proof.Gen.Kernel.Frame
import proofs.«176870_j49572512530486_2_alg».proof.Proof.Gen.KernelIdeal
import proofs.«176870_j49572512530486_2_alg».proof.Proof.Gen.KernelIdeal.Skeleton
import proofs.«176870_j49572512530486_2_alg».proof.Proof.Gen.KernelIdeal.Launch
import proofs.«176870_j49572512530486_2_alg».proof.Proof.Gen.KernelIdeal.Points
import proofs.«176870_j49572512530486_2_alg».proof.Proof.Gen.KernelIdeal.Frame
import proofs.«176870_j49572512530486_2_alg».proof.Proof.Gen.ReferenceIdeal
import proofs.«176870_j49572512530486_2_alg».proof.Proof.Gen.Pre_finite_inputs
import proofs.«176870_j49572512530486_2_alg».proof.Proof.Gen.KernelIdeal.Value
import proofs.«176870_j49572512530486_2_alg».proof.Proof.Gen.ReferenceIdeal.Run
import proofs.«176870_j49572512530486_2_alg».proof.Proof.Gen.ReferenceIdeal.Read
import proofs.«176870_j49572512530486_2_alg».proof.Proof.RbfBlocks
import proofs.«176870_j49572512530486_2_alg».proof.Proof.RbfReference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the radial-basis function of the argument arrays: the kernel tile by
    tile, the reference operation by operation, from memories that agree on the arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
